-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v29)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v29) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v34) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x512 : Shape := ⟨2, ![50000, 512]⟩
abbrev S2x400000 : Shape := ⟨2, ![2, 400000]⟩
abbrev S512x512 : Shape := ⟨2, ![512, 512]⟩
abbrev S512 : Shape := ⟨1, ![512]⟩
abbrev S512x256 : Shape := ⟨2, ![512, 256]⟩
abbrev S256 : Shape := ⟨1, ![256]⟩
abbrev S_ : Shape := ⟨0, ![]⟩

class Facts : Prop where
  bcast_S_S50000x512 : S_.BroadcastsInDim S50000x512 (![] : Fin 0 → Fin S50000x512.rank)
  reducesTo_S50000x512_S_d0_1 : S50000x512.ReducesTo [0, 1] S_
  h_S_ : 0 < S_.numel
  bcast_S_S512x512 : S_.BroadcastsInDim S512x512 (![] : Fin 0 → Fin S512x512.rank)
  reducesTo_S512x512_S_d0_1 : S512x512.ReducesTo [0, 1] S_
  bcast_S_S512 : S_.BroadcastsInDim S512 (![] : Fin 0 → Fin S512.rank)
  reducesTo_S512_S_d0 : S512.ReducesTo [0] S_
  bcast_S_S512x256 : S_.BroadcastsInDim S512x256 (![] : Fin 0 → Fin S512x256.rank)
  reducesTo_S512x256_S_d0_1 : S512x256.ReducesTo [0, 1] S_
  bcast_S_S256 : S_.BroadcastsInDim S256 (![] : Fin 0 → Fin S256.rank)
  reducesTo_S256_S_d0 : S256.ReducesTo [0] S_

variable [Facts]

def fn_part1 {F : FTy → Type} [FloatOps F] (main_arg5 : FVec F S256 .f32) (main_v13 : IVec S_ 1) (main_v16 : IVec S512x256 1) : IVec S_ 1 :=
  let main_c_5 : IVec S_ 1 := constantI S_ 1 1#1
  let main_v17 : IVec S_ 1 := (fun x v => Host.reduce IntOp.andi x v reducesTo_S512x256_S_d0_1 h_S_) main_v16 main_c_5
  let main_v18 : IVec S_ 1 := andi main_v13 main_v17
  let main_v19 : FVec F S256 .f32 := Host.absf main_arg5
  let main_cst_6 : FVec F S_ .f32 := constant S_ .f32 0x7F800000#32
  let main_v20 : FVec F S256 .f32 := broadcastInDim S256 ![] bcast_S_S256 main_cst_6
  let main_v21 : IVec S256 1 := cmpf .olt main_v19 main_v20
  let main_c_7 : IVec S_ 1 := constantI S_ 1 1#1
  let main_v22 : IVec S_ 1 := (fun x v => Host.reduce IntOp.andi x v reducesTo_S256_S_d0 h_S_) main_v21 main_c_7
  let main_v23 : IVec S_ 1 := andi main_v18 main_v22
  main_v23

def fn {F : FTy → Type} [FloatOps F] (main_arg0 : FVec F S50000x512 .f32) (main_arg1 : IVec S2x400000 32) (main_arg2 : FVec F S512x512 .f32) (main_arg3 : FVec F S512 .f32) (main_arg4 : FVec F S512x256 .f32) (main_arg5 : FVec F S256 .f32) : IVec S_ 1 :=
  let main_v0 : FVec F S50000x512 .f32 := Host.absf main_arg0
  let main_cst : FVec F S_ .f32 := constant S_ .f32 0x7F800000#32
  let main_v1 : FVec F S50000x512 .f32 := broadcastInDim S50000x512 ![] bcast_S_S50000x512 main_cst
  let main_v2 : IVec S50000x512 1 := cmpf .olt main_v0 main_v1
  let main_c : IVec S_ 1 := constantI S_ 1 1#1
  let main_v3 : IVec S_ 1 := (fun x v => Host.reduce IntOp.andi x v reducesTo_S50000x512_S_d0_1 h_S_) main_v2 main_c
  let main_v4 : FVec F S512x512 .f32 := Host.absf main_arg2
  let main_cst_0 : FVec F S_ .f32 := constant S_ .f32 0x7F800000#32
  let main_v5 : FVec F S512x512 .f32 := broadcastInDim S512x512 ![] bcast_S_S512x512 main_cst_0
  let main_v6 : IVec S512x512 1 := cmpf .olt main_v4 main_v5
  let main_c_1 : IVec S_ 1 := constantI S_ 1 1#1
  let main_v7 : IVec S_ 1 := (fun x v => Host.reduce IntOp.andi x v reducesTo_S512x512_S_d0_1 h_S_) main_v6 main_c_1
  let main_v8 : IVec S_ 1 := andi main_v3 main_v7
  let main_v9 : FVec F S512 .f32 := Host.absf main_arg3
  let main_cst_2 : FVec F S_ .f32 := constant S_ .f32 0x7F800000#32
  let main_v10 : FVec F S512 .f32 := broadcastInDim S512 ![] bcast_S_S512 main_cst_2
  let main_v11 : IVec S512 1 := cmpf .olt main_v9 main_v10
  let main_c_3 : IVec S_ 1 := constantI S_ 1 1#1
  let main_v12 : IVec S_ 1 := (fun x v => Host.reduce IntOp.andi x v reducesTo_S512_S_d0 h_S_) main_v11 main_c_3
  let main_v13 : IVec S_ 1 := andi main_v8 main_v12
  let main_v14 : FVec F S512x256 .f32 := Host.absf main_arg4
  let main_cst_4 : FVec F S_ .f32 := constant S_ .f32 0x7F800000#32
  let main_v15 : FVec F S512x256 .f32 := broadcastInDim S512x256 ![] bcast_S_S512x256 main_cst_4
  let main_v16 : IVec S512x256 1 := cmpf .olt main_v14 main_v15
  fn_part1 (F := F) main_arg5 main_v13 main_v16
-- ==== Kernel.lean ====
abbrev S50000x512 : Shape := ⟨2, ![50000, 512]⟩
abbrev S2x400000 : Shape := ⟨2, ![2, 400000]⟩
abbrev S512x512 : Shape := ⟨2, ![512, 512]⟩
abbrev S512 : Shape := ⟨1, ![512]⟩
abbrev S512x256 : Shape := ⟨2, ![512, 256]⟩
abbrev S256 : Shape := ⟨1, ![256]⟩
abbrev S1x400000 : Shape := ⟨2, ![1, 400000]⟩
abbrev S400000 : Shape := ⟨1, ![400000]⟩
abbrev S_ : Shape := ⟨0, ![]⟩
abbrev S400000x1 : Shape := ⟨2, ![400000, 1]⟩
abbrev S400000x512 : Shape := ⟨2, ![400000, 512]⟩
abbrev S1x512 : Shape := ⟨2, ![1, 512]⟩
abbrev S1000x512 : Shape := ⟨2, ![1000, 512]⟩
abbrev S1x256 : Shape := ⟨2, ![1, 256]⟩
abbrev S50000x256 : Shape := ⟨2, ![50000, 256]⟩
abbrev S1000x256 : Shape := ⟨2, ![1000, 256]⟩

abbrev nBuf : Space → Nat
  | .hbm => 42
  | .vmem => 12
  | .smem => 0
  | _ => 0

abbrev bufTy : (tb : Table) → Fin (tcTables nBuf tb) → BufTy
  | .hbm, ⟨0, _⟩ => ⟨S50000x512, .f32⟩
  | .hbm, ⟨1, _⟩ => ⟨S2x400000, .i32⟩
  | .hbm, ⟨2, _⟩ => ⟨S512x512, .f32⟩
  | .hbm, ⟨3, _⟩ => ⟨S512, .f32⟩
  | .hbm, ⟨4, _⟩ => ⟨S512x256, .f32⟩
  | .hbm, ⟨5, _⟩ => ⟨S256, .f32⟩
  | .hbm, ⟨6, _⟩ => ⟨S1x400000, .i32⟩
  | .hbm, ⟨7, _⟩ => ⟨S400000, .i32⟩
  | .hbm, ⟨8, _⟩ => ⟨S1x400000, .i32⟩
  | .hbm, ⟨9, _⟩ => ⟨S400000, .i32⟩
  | .hbm, ⟨10, _⟩ => ⟨S_, .i32⟩
  | .hbm, ⟨11, _⟩ => ⟨S400000, .i32⟩
  | .hbm, ⟨12, _⟩ => ⟨S400000, .i1⟩
  | .hbm, ⟨13, _⟩ => ⟨S_, .i32⟩
  | .hbm, ⟨14, _⟩ => ⟨S400000, .i32⟩
  | .hbm, ⟨15, _⟩ => ⟨S400000, .i32⟩
  | .hbm, ⟨16, _⟩ => ⟨S400000, .i32⟩
  | .hbm, ⟨17, _⟩ => ⟨S400000x1, .i32⟩
  | .hbm, ⟨18, _⟩ => ⟨S400000x512, .f32⟩
  | .hbm, ⟨19, _⟩ => ⟨S_, .f32⟩
  | .hbm, ⟨20, _⟩ => ⟨S50000x512, .f32⟩
  | .hbm, ⟨21, _⟩ => ⟨S400000x1, .i32⟩
  | .hbm, ⟨22, _⟩ => ⟨S50000x512, .f32⟩
  | .hbm, ⟨23, _⟩ => ⟨S50000x512, .f32⟩
  | .hbm, ⟨24, _⟩ => ⟨S1x512, .f32⟩
  | .hbm, ⟨25, _⟩ => ⟨S50000x512, .f32⟩
  | .hbm, ⟨26, _⟩ => ⟨S_, .i32⟩
  | .hbm, ⟨27, _⟩ => ⟨S400000, .i32⟩
  | .hbm, ⟨28, _⟩ => ⟨S400000, .i1⟩
  | .hbm, ⟨29, _⟩ => ⟨S_, .i32⟩
  | .hbm, ⟨30, _⟩ => ⟨S400000, .i32⟩
  | .hbm, ⟨31, _⟩ => ⟨S400000, .i32⟩
  | .hbm, ⟨32, _⟩ => ⟨S400000, .i32⟩
  | .hbm, ⟨33, _⟩ => ⟨S400000x1, .i32⟩
  | .hbm, ⟨34, _⟩ => ⟨S400000x512, .f32⟩
  | .hbm, ⟨35, _⟩ => ⟨S_, .f32⟩
  | .hbm, ⟨36, _⟩ => ⟨S50000x512, .f32⟩
  | .hbm, ⟨37, _⟩ => ⟨S400000x1, .i32⟩
  | .hbm, ⟨38, _⟩ => ⟨S50000x512, .f32⟩
  | .hbm, ⟨39, _⟩ => ⟨S50000x512, .f32⟩
  | .hbm, ⟨40, _⟩ => ⟨S1x256, .f32⟩
  | .hbm, ⟨41, _⟩ => ⟨S50000x256, .f32⟩
  | .local _ .vmem, ⟨0, _⟩ => ⟨S1000x512, .f32⟩
  | .local _ .vmem, ⟨1, _⟩ => ⟨S1000x512, .f32⟩
  | .local _ .vmem, ⟨2, _⟩ => ⟨S512x512, .f32⟩
  | .local _ .vmem, ⟨3, _⟩ => ⟨S1x512, .f32⟩
  | .local _ .vmem, ⟨4, _⟩ => ⟨S1000x512, .f32⟩
  | .local _ .vmem, ⟨5, _⟩ => ⟨S1000x512, .f32⟩
  | .local _ .vmem, ⟨6, _⟩ => ⟨S1000x512, .f32⟩
  | .local _ .vmem, ⟨7, _⟩ => ⟨S1000x512, .f32⟩
  | .local _ .vmem, ⟨8, _⟩ => ⟨S512x256, .f32⟩
  | .local _ .vmem, ⟨9, _⟩ => ⟨S1x256, .f32⟩
  | .local _ .vmem, ⟨10, _⟩ => ⟨S1000x256, .f32⟩
  | .local _ .vmem, ⟨11, _⟩ => ⟨S1000x256, .f32⟩
  | _, _ => ⟨S50000x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_c : Ref sig .tc := ⟨.hbm, 10, rfl⟩
abbrev main_v4 : Ref sig .tc := ⟨.hbm, 11, rfl⟩
abbrev main_v5 : Ref sig .tc := ⟨.hbm, 12, rfl⟩
abbrev main_c_0 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_c_1 : Ref sig .tc := ⟨.hbm, 26, rfl⟩
abbrev main_v17 : Ref sig .tc := ⟨.hbm, 27, rfl⟩
abbrev main_v18 : Ref sig .tc := ⟨.hbm, 28, rfl⟩
abbrev main_c_2 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_cst_3 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg2_0 : Ref sig .tc := ⟨.vmem, 9, rfl⟩
abbrev cc1_stg3_0 : Ref sig .tc := ⟨.vmem, 10, rfl⟩
abbrev cc1_stg3_1 : Ref sig .tc := ⟨.vmem, 11, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc1_sem0_0 : DmaSem sig := 6
abbrev cc1_sem0_1 : DmaSem sig := 7
abbrev cc1_sem1_0 : DmaSem sig := 8
abbrev cc1_sem2_0 : DmaSem sig := 9
abbrev cc1_sem3_0 : DmaSem sig := 10
abbrev cc1_sem3_1 : DmaSem sig := 11

abbrev nD : Nat := 1
abbrev τ : Topo := Topo.v7x

variable {F : FTy → Type} [FloatOps F]

abbrev grid0 : Pipeline.Grid := ⟨1, ![50], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1000x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S512x512 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S1000x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![50], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S1000x512 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S512x256 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S1x256 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S1000x256 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

class Facts₀ : Prop where
  slices_S2x400000_S1x400000_0_0 : S2x400000.Slices ![0, 0] S1x400000
  shapeCasts_S1x400000_S400000 : S1x400000.ShapeCasts S400000
  slices_S2x400000_S1x400000_1_0 : S2x400000.Slices ![1, 0] S1x400000
  bcast_S_S400000 : S_.BroadcastsInDim S400000 (![] : Fin 0 → Fin S400000.rank)
  bcast_S400000_S400000x1_0 : S400000.BroadcastsInDim S400000x1 (![0] : Fin 1 → Fin S400000x1.rank)
  bcast_S_S50000x512 : S_.BroadcastsInDim S50000x512 (![] : Fin 0 → Fin S50000x512.rank)
  shapeCasts_S512_S1x512 : S512.ShapeCasts S1x512
  inb_S1000x512_S1000x512_0_0 : ∀ a, (![0, 0] : Fin 2 → Nat) a + S1000x512.size a ≤ S1000x512.size a
  h_S1000x512 : 0 < S1000x512.numel
  shapeCasts_S1000x512_S1000x512 : S1000x512.ShapeCasts S1000x512
  bitsLt_bf16_f32 : FTy.bits .bf16 < FTy.bits .f32
  inb_S512x512_S512x512_0_0 : ∀ a, (![0, 0] : Fin 2 → Nat) a + S512x512.size a ≤ S512x512.size a
  h_S512x512 : 0 < S512x512.numel
  inb_S1x512_S1x512_0_0 : ∀ a, (![0, 0] : Fin 2 → Nat) a + S1x512.size a ≤ S1x512.size a
  h_S1x512 : 0 < S1x512.numel
  shapeCasts_S1x512_S1x512 : S1x512.ShapeCasts S1x512
  broadcasts_S1x512_S1000x512 : S1x512.Broadcasts S1000x512
  shapeCasts_S256_S1x256 : S256.ShapeCasts S1x256
  inb_S512x256_S512x256_0_0 : ∀ a, (![0, 0] : Fin 2 → Nat) a + S512x256.size a ≤ S512x256.size a
  h_S512x256 : 0 < S512x256.numel
  inb_S1x256_S1x256_0_0 : ∀ a, (![0, 0] : Fin 2 → Nat) a + S1x256.size a ≤ S1x256.size a
  h_S1x256 : 0 < S1x256.numel
  shapeCasts_S1x256_S1x256 : S1x256.ShapeCasts S1x256
  broadcasts_S1x256_S1000x256 : S1x256.Broadcasts S1000x256
  inb_S1000x256_S1000x256_0_0 : ∀ a, (![0, 0] : Fin 2 → Nat) a + S1000x256.size a ≤ S1000x256.size a
  h_S1000x256 : 0 < S1000x256.numel
  gather_S50000x512_S400000x1_S400000x512_1_0_n_n_0_1_1512_wf : GatherDims.WF S50000x512 S400000x1 S400000x512 [1] [0] [] [0] [] 1 ![1, 512]
  scatter_S50000x512_S400000x1_S400000x512_1_0_0_1_wf : ScatterDims.WF S50000x512 S400000x1 S400000x512 [1] [0] [0] 1
  dot_S1000x512_S512x512_S1000x512_1_0_0_1_n_n_wf : DotDims.WF S1000x512 S512x512 S1000x512 [1] [0] [0] [1] [] []
  dot_S1000x512_S512x256_S1000x256_1_0_0_1_n_n_wf : DotDims.WF S1000x512 S512x256 S1000x256 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1000x512.size a ≤ S50000x512.size a
  hwx0_0 : ∀ i : grid0.Coords, EltTy.bits .f32 = 32 ∨ (Rect.block (s := S50000x512) S1000x512.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S512x512.size a ≤ S512x512.size a
  hwx0_1 : ∀ i : grid0.Coords, EltTy.bits .f32 = 32 ∨ (Rect.block (s := S512x512) S512x512.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x512.size a ≤ S1x512.size a
  hwx0_2 : ∀ i : grid0.Coords, EltTy.bits .f32 = 32 ∨ (Rect.block (s := S1x512) S1x512.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1000x512.size a ≤ S50000x512.size a
  hwx0_3 : ∀ i : grid0.Coords, EltTy.bits .f32 = 32 ∨ (Rect.block (s := S50000x512) S1000x512.size (cc0_transform_3 i) (hinb0_3 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1000x512.size a ≤ S50000x512.size a
  hwx1_0 : ∀ i : grid1.Coords, EltTy.bits .f32 = 32 ∨ (Rect.block (s := S50000x512) S1000x512.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S512x256.size a ≤ S512x256.size a
  hwx1_1 : ∀ i : grid1.Coords, EltTy.bits .f32 = 32 ∨ (Rect.block (s := S512x256) S512x256.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x256.size a ≤ S1x256.size a
  hwx1_2 : ∀ i : grid1.Coords, EltTy.bits .f32 = 32 ∨ (Rect.block (s := S1x256) S1x256.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S1000x256.size a ≤ S50000x256.size a
  hwx1_3 : ∀ i : grid1.Coords, EltTy.bits .f32 = 32 ∨ (Rect.block (s := S50000x256) S1000x256.size (cc1_transform_3 i) (hinb1_3 i)).WholeWords (EltTy.packing .f32)

variable [Facts₀]

def gather_S50000x512_S400000x1_S400000x512_1_0_n_n_0_1_1512 : GatherDims S50000x512 S400000x1 S400000x512 where
  offsetDims := [1]
  collapsedSliceDims := [0]
  operandBatchingDims := []
  startIndicesBatchingDims := []
  startIndexMap := [0]
  indexVectorDim := 1
  sliceSizes := ![1, 512]
  wf := gather_S50000x512_S400000x1_S400000x512_1_0_n_n_0_1_1512_wf
def scatter_S50000x512_S400000x1_S400000x512_1_0_0_1 : ScatterDims S50000x512 S400000x1 S400000x512 where
  updateWindowDims := [1]
  insertedWindowDims := [0]
  scatterDimsToOperandDims := [0]
  indexVectorDim := 1
  wf := scatter_S50000x512_S400000x1_S400000x512_1_0_0_1_wf
def dot_S1000x512_S512x512_S1000x512_1_0_0_1_n_n : DotDims S1000x512 S512x512 S1000x512 where
  lhsContracting := [1]
  rhsContracting := [0]
  lhsNonContracting := [0]
  rhsNonContracting := [1]
  lhsBatch := []
  rhsBatch := []
  wf := dot_S1000x512_S512x512_S1000x512_1_0_0_1_n_n_wf
def dot_S1000x512_S512x256_S1000x256_1_0_0_1_n_n : DotDims S1000x512 S512x256 S1000x256 where
  lhsContracting := [1]
  rhsContracting := [0]
  lhsNonContracting := [0]
  rhsNonContracting := [1]
  lhsBatch := []
  rhsBatch := []
  wf := dot_S1000x512_S512x256_S1000x256_1_0_0_1_n_n_wf

abbrev win0_0 : Pipeline.Window sig grid0 :=
  Pipeline.Window.ofSpec (Memref.whole main_v14) S1000x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S512x512.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v15) S1x512.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v16) S1000x512.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_v27) S1000x512.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg4) S512x256.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v28) S1x256.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v29) S1000x256.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

class Facts : Prop extends Facts₀ where

variable [Facts]
-- ==== ReferenceIdeal.lean ====
abbrev S50000x512 : Shape := ⟨2, ![50000, 512]⟩
abbrev S2x400000 : Shape := ⟨2, ![2, 400000]⟩
abbrev S512x512 : Shape := ⟨2, ![512, 512]⟩
abbrev S512 : Shape := ⟨1, ![512]⟩
abbrev S512x256 : Shape := ⟨2, ![512, 256]⟩
abbrev S256 : Shape := ⟨1, ![256]⟩
abbrev S1x400000 : Shape := ⟨2, ![1, 400000]⟩
abbrev S400000 : Shape := ⟨1, ![400000]⟩
abbrev S_ : Shape := ⟨0, ![]⟩
abbrev S400000x1 : Shape := ⟨2, ![400000, 1]⟩
abbrev S400000x512 : Shape := ⟨2, ![400000, 512]⟩
abbrev S1x512 : Shape := ⟨2, ![1, 512]⟩
abbrev S50000x256 : Shape := ⟨2, ![50000, 256]⟩
abbrev S1x256 : Shape := ⟨2, ![1, 256]⟩

abbrev nBuf : Space → Nat
  | .hbm => 49
  | .vmem => 0
  | .smem => 0
  | _ => 0

abbrev bufTy : (tb : Table) → Fin (tcTables nBuf tb) → BufTy
  | .hbm, ⟨0, _⟩ => ⟨S50000x512, .f32⟩
  | .hbm, ⟨1, _⟩ => ⟨S2x400000, .i32⟩
  | .hbm, ⟨2, _⟩ => ⟨S512x512, .f32⟩
  | .hbm, ⟨3, _⟩ => ⟨S512, .f32⟩
  | .hbm, ⟨4, _⟩ => ⟨S512x256, .f32⟩
  | .hbm, ⟨5, _⟩ => ⟨S256, .f32⟩
  | .hbm, ⟨6, _⟩ => ⟨S1x400000, .i32⟩
  | .hbm, ⟨7, _⟩ => ⟨S400000, .i32⟩
  | .hbm, ⟨8, _⟩ => ⟨S1x400000, .i32⟩
  | .hbm, ⟨9, _⟩ => ⟨S400000, .i32⟩
  | .hbm, ⟨10, _⟩ => ⟨S_, .i32⟩
  | .hbm, ⟨11, _⟩ => ⟨S400000, .i32⟩
  | .hbm, ⟨12, _⟩ => ⟨S400000, .i1⟩
  | .hbm, ⟨13, _⟩ => ⟨S_, .i32⟩
  | .hbm, ⟨14, _⟩ => ⟨S400000, .i32⟩
  | .hbm, ⟨15, _⟩ => ⟨S400000, .i32⟩
  | .hbm, ⟨16, _⟩ => ⟨S400000, .i32⟩
  | .hbm, ⟨17, _⟩ => ⟨S400000x1, .i32⟩
  | .hbm, ⟨18, _⟩ => ⟨S400000x512, .f32⟩
  | .hbm, ⟨19, _⟩ => ⟨S_, .f32⟩
  | .hbm, ⟨20, _⟩ => ⟨S50000x512, .f32⟩
  | .hbm, ⟨21, _⟩ => ⟨S400000x1, .i32⟩
  | .hbm, ⟨22, _⟩ => ⟨S50000x512, .f32⟩
  | .hbm, ⟨23, _⟩ => ⟨S50000x512, .f32⟩
  | .hbm, ⟨24, _⟩ => ⟨S50000x512, .f32⟩
  | .hbm, ⟨25, _⟩ => ⟨S1x512, .f32⟩
  | .hbm, ⟨26, _⟩ => ⟨S50000x512, .f32⟩
  | .hbm, ⟨27, _⟩ => ⟨S50000x512, .f32⟩
  | .hbm, ⟨28, _⟩ => ⟨S_, .f32⟩
  | .hbm, ⟨29, _⟩ => ⟨S50000x512, .f32⟩
  | .hbm, ⟨30, _⟩ => ⟨S50000x512, .f32⟩
  | .hbm, ⟨31, _⟩ => ⟨S_, .i32⟩
  | .hbm, ⟨32, _⟩ => ⟨S400000, .i32⟩
  | .hbm, ⟨33, _⟩ => ⟨S400000, .i1⟩
  | .hbm, ⟨34, _⟩ => ⟨S_, .i32⟩
  | .hbm, ⟨35, _⟩ => ⟨S400000, .i32⟩
  | .hbm, ⟨36, _⟩ => ⟨S400000, .i32⟩
  | .hbm, ⟨37, _⟩ => ⟨S400000, .i32⟩
  | .hbm, ⟨38, _⟩ => ⟨S400000x1, .i32⟩
  | .hbm, ⟨39, _⟩ => ⟨S400000x512, .f32⟩
  | .hbm, ⟨40, _⟩ => ⟨S_, .f32⟩
  | .hbm, ⟨41, _⟩ => ⟨S50000x512, .f32⟩
  | .hbm, ⟨42, _⟩ => ⟨S400000x1, .i32⟩
  | .hbm, ⟨43, _⟩ => ⟨S50000x512, .f32⟩
  | .hbm, ⟨44, _⟩ => ⟨S50000x512, .f32⟩
  | .hbm, ⟨45, _⟩ => ⟨S50000x256, .f32⟩
  | .hbm, ⟨46, _⟩ => ⟨S1x256, .f32⟩
  | .hbm, ⟨47, _⟩ => ⟨S50000x256, .f32⟩
  | .hbm, ⟨48, _⟩ => ⟨S50000x256, .f32⟩
  | _, _ => ⟨S50000x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_c : Ref sig .tc := ⟨.hbm, 10, rfl⟩
abbrev main_v4 : Ref sig .tc := ⟨.hbm, 11, rfl⟩
abbrev main_v5 : Ref sig .tc := ⟨.hbm, 12, rfl⟩
abbrev main_c_0 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_call0_cst : Ref sig .tc := ⟨.hbm, 28, rfl⟩
abbrev main_call0_v0 : Ref sig .tc := ⟨.hbm, 29, rfl⟩
abbrev main_v19 : Ref sig .tc := ⟨.hbm, 30, rfl⟩
abbrev main_c_1 : Ref sig .tc := ⟨.hbm, 31, rfl⟩
abbrev main_v20 : Ref sig .tc := ⟨.hbm, 32, rfl⟩
abbrev main_v21 : Ref sig .tc := ⟨.hbm, 33, rfl⟩
abbrev main_c_2 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_cst_3 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩

abbrev nD : Nat := 1
abbrev τ : Topo := Topo.v7x

variable {F : FTy → Type} [FloatOps F]

class Facts₀ : Prop where
  slices_S2x400000_S1x400000_0_0 : S2x400000.Slices ![0, 0] S1x400000
  shapeCasts_S1x400000_S400000 : S1x400000.ShapeCasts S400000
  slices_S2x400000_S1x400000_1_0 : S2x400000.Slices ![1, 0] S1x400000
  bcast_S_S400000 : S_.BroadcastsInDim S400000 (![] : Fin 0 → Fin S400000.rank)
  bcast_S400000_S400000x1_0 : S400000.BroadcastsInDim S400000x1 (![0] : Fin 1 → Fin S400000x1.rank)
  bcast_S_S50000x512 : S_.BroadcastsInDim S50000x512 (![] : Fin 0 → Fin S50000x512.rank)
  bcast_S512_S1x512_1 : S512.BroadcastsInDim S1x512 (![1] : Fin 1 → Fin S1x512.rank)
  bcast_S1x512_S50000x512_0_1 : S1x512.BroadcastsInDim S50000x512 (![0, 1] : Fin 2 → Fin S50000x512.rank)
  bcast_S256_S1x256_1 : S256.BroadcastsInDim S1x256 (![1] : Fin 1 → Fin S1x256.rank)
  bcast_S1x256_S50000x256_0_1 : S1x256.BroadcastsInDim S50000x256 (![0, 1] : Fin 2 → Fin S50000x256.rank)
  gather_S50000x512_S400000x1_S400000x512_1_0_n_n_0_1_1512_wf : GatherDims.WF S50000x512 S400000x1 S400000x512 [1] [0] [] [0] [] 1 ![1, 512]
  scatter_S50000x512_S400000x1_S400000x512_1_0_0_1_wf : ScatterDims.WF S50000x512 S400000x1 S400000x512 [1] [0] [0] 1
  dot_S50000x512_S512x512_S50000x512_1_0_0_1_n_n_wf : DotDims.WF S50000x512 S512x512 S50000x512 [1] [0] [0] [1] [] []
  dot_S50000x512_S512x256_S50000x256_1_0_0_1_n_n_wf : DotDims.WF S50000x512 S512x256 S50000x256 [1] [0] [0] [1] [] []

variable [Facts₀]

def gather_S50000x512_S400000x1_S400000x512_1_0_n_n_0_1_1512 : GatherDims S50000x512 S400000x1 S400000x512 where
  offsetDims := [1]
  collapsedSliceDims := [0]
  operandBatchingDims := []
  startIndicesBatchingDims := []
  startIndexMap := [0]
  indexVectorDim := 1
  sliceSizes := ![1, 512]
  wf := gather_S50000x512_S400000x1_S400000x512_1_0_n_n_0_1_1512_wf
def scatter_S50000x512_S400000x1_S400000x512_1_0_0_1 : ScatterDims S50000x512 S400000x1 S400000x512 where
  updateWindowDims := [1]
  insertedWindowDims := [0]
  scatterDimsToOperandDims := [0]
  indexVectorDim := 1
  wf := scatter_S50000x512_S400000x1_S400000x512_1_0_0_1_wf
def dot_S50000x512_S512x512_S50000x512_1_0_0_1_n_n : DotDims S50000x512 S512x512 S50000x512 where
  lhsContracting := [1]
  rhsContracting := [0]
  lhsNonContracting := [0]
  rhsNonContracting := [1]
  lhsBatch := []
  rhsBatch := []
  wf := dot_S50000x512_S512x512_S50000x512_1_0_0_1_n_n_wf
def dot_S50000x512_S512x256_S50000x256_1_0_0_1_n_n : DotDims S50000x512 S512x256 S50000x256 where
  lhsContracting := [1]
  rhsContracting := [0]
  lhsNonContracting := [0]
  rhsNonContracting := [1]
  lhsBatch := []
  rhsBatch := []
  wf := dot_S50000x512_S512x256_S50000x256_1_0_0_1_n_n_wf

class Facts : Prop extends Facts₀ where

variable [Facts]
-- ==== Proof.RunResult.lean ====
/-
  The run of the two-layer program with its result array named.

  The program is two host stretches and two grid regions in turn.  The contents of every buffer at the four
  boundaries are a fold from the launch memory (the boundary valuations of the frame module); at the end of the
  last region every unscoped buffer, the result among them, holds the last boundary's contents.  The frame module
  reads that last state at the six argument arrays only; here the same launch over the same segments is read at
  the result array as well, so that the result after every weakly fair execution is the last boundary's contents
  at the result buffer, a pure term of the launch memory.
-/
import proofs.«147113_j12386685682456_1_alg».proof.Proof.Gen.KernelIdeal.Frame

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution terminates with the result array at the last boundary's contents and the six
    argument arrays as launched. -/
theorem run_result : θ_run defs (onTc (τ := τ) (main (F := F))) ⟨m, fun _ => 0, ρ⟩ (fun r => ∀ c : Dev nD,
      r.2.mem ((c.tc : Thread nD τ).loc main_v29) = W4 m ρ c (Proc.devRef .tc main_v29)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m ρ c b)
    (hfin := fun c s' => by
      iintro ⟨⟨Hh, -⟩, HSI⟩
      unfold StableHlo.held
      imodintro
      iapply (pointsTo_read_all (Pipeline.ucRefs τ sig) (fun b => (((c : Thread nD τ)).1, b)) (W4 m ρ c) s')
      isplitl [Hh] <;> iassumption)
    (hQ := fun s h c =>
      ⟨h c _ (mem_uc main_v29 (by decide)),
       (h c _ (mem_uc main_arg0 (by decide))).trans (W4_main_arg0 m ρ c),
       (h c _ (mem_uc main_arg1 (by decide))).trans (W4_main_arg1 m ρ c),
       (h c _ (mem_uc main_arg2 (by decide))).trans (W4_main_arg2 m ρ c),
       (h c _ (mem_uc main_arg3 (by decide))).trans (W4_main_arg3 m ρ c),
       (h c _ (mem_uc main_arg4 (by decide))).trans (W4_main_arg4 m ρ c),
       (h c _ (mem_uc main_arg5 (by decide))).trans (W4_main_arg5 m ρ c)⟩)

end Cert.KernelIdeal.Hand

end
-- ==== Proof.LibContract1.lean ====
/-
  A matrix product whose dimension numbers contract ONE axis, read at a result index at the ideal values, for any
  dimension record: the kernel's `tpu.matmul` into the zero accumulator and the host's `dot_general` are both the sum,
  over that axis's coordinate `k : Fin n`, of the operands' products, each operand read at an index the caller NAMES
  (`L k`, `R k`) and proves to be where the record sends the result index and `k`. The caller's two obligations are
  per-axis facts about `DotDims.lhsIdx` / `rhsIdx` (`DotDims.lhsIdx_val_of_single` on the contracted axis, two `dif`
  rewrites on a kept one); everything else — opening the product, re-indexing the contraction shape's one-axis index by
  `Fin n` — is done here once.
-/
import Idealize.ShloMosaic.PureOps.Ideal.Laws
import Idealize.ShloMosaic.Lib.ValueIdx

noncomputable section

namespace Cert.LibContract1

open Idealize.ShloMosaic Idealize.ShloMosaic.ValueIdx

/-- A `tpu.matmul` into the f32 zero splat, one contracted axis of extent `n`: at `j` it is `∑ k, lhs (L k) · rhs (R k)`. -/
theorem matmul_zero_single {sl sr so : Shape} {φ₁ φ₂ : FTy} (d : DotDims sl sr so) (n : ℕ) (hr : d.contr.rank = 1)
    (hs : d.contr.size ⟨0, by omega⟩ = n) (lhs : FVec Ideal sl φ₁) (rhs : FVec Ideal sr φ₂) (j : so.Idx)
    (L : Fin n → sl.Idx) (R : Fin n → sr.Idx)
    (hL : ∀ k, d.lhsIdx j ((contrEquiv1 d n hr hs).symm k) = L k)
    (hR : ∀ k, d.rhsIdx j ((contrEquiv1 d n hr hs).symm k) = R k) :
    matmul d none lhs rhs (constant (F := Ideal) so .f32 0x00000000#32) j = ∑ k : Fin n, lhs (L k) * rhs (R k) := by
  simp only [matmul]
  rw [Ideal.matmul_constant_zero_apply, ← Equiv.sum_comp (contrEquiv1 d n hr hs).symm]
  exact Finset.sum_congr rfl fun k _ => by rw [hL k, hR k]

/-- The host's `dot_general`, one contracted axis of extent `n`: at `j` it is `∑ k, lhs (L k) · rhs (R k)`. -/
theorem dotGeneral_single {sl sr so : Shape} {φ₁ φ₂ : FTy} (d : DotDims sl sr so) (n : ℕ) (hr : d.contr.rank = 1)
    (hs : d.contr.size ⟨0, by omega⟩ = n) (lhs : FVec Ideal sl φ₁) (rhs : FVec Ideal sr φ₂) (j : so.Idx)
    (L : Fin n → sl.Idx) (R : Fin n → sr.Idx)
    (hL : ∀ k, d.lhsIdx j ((contrEquiv1 d n hr hs).symm k) = L k)
    (hR : ∀ k, d.rhsIdx j ((contrEquiv1 d n hr hs).symm k) = R k) :
    Host.dotGeneral d none lhs rhs j = ∑ k : Fin n, lhs (L k) * rhs (R k) := by
  simp only [Host.dotGeneral]
  rw [Ideal.dotGeneral_apply, ← Equiv.sum_comp (contrEquiv1 d n hr hs).symm]
  exact Finset.sum_congr rfl fun k _ => by rw [hL k, hR k]

end Cert.LibContract1

end
-- ==== Proof.KernelBody.lean ====
/-
  What one grid point of each layer's kernel stores, read at an entry of its block.

  A point loads a block of 1000 rows of the aggregated features, the whole weight matrix and the bias row, rounds
  the two matrix operands to a narrower float format (the identity on the extended reals), multiplies them into a
  zero accumulator, adds the bias row to every row and, in the first layer, takes the larger of the result and
  zero.  At entry `(p, q)` of the block that is the inner product of row `p` of the loaded rows with column `q`
  of the weights, plus the bias at `q` (and the rectifier).
-/
import proofs.«147113_j12386685682456_1_alg».proof.Proof.Gen.KernelIdeal.Skeleton
import proofs.«147113_j12386685682456_1_alg».proof.Proof.LibContract1
import Idealize.ShloMosaic.Lib.ValueLayout
import Idealize.ShloMosaic.Lib.Pipeline.Value

noncomputable section

namespace Cert.KernelIdeal.Body

open Cert.KernelIdeal Cert.KernelIdeal.Gen Idealize.ShloMosaic Idealize.ShloMosaic.ValueIdx

/-! ## Where the first layer's product reads its operands -/

/-- The first layer's product: rows × contraction against contraction × columns, no batch axis. -/
abbrev D0 : DotDims S1000x512 S512x512 S1000x512 := dot_S1000x512_S512x512_S1000x512_1_0_0_1_n_n
/-- The second layer's product, of the same form. -/
abbrev D1 : DotDims S1000x512 S512x256 S1000x256 := dot_S1000x512_S512x256_S1000x256_1_0_0_1_n_n

/-! ### The first layer's product (1000 rows of 512 against 512 × 512) -/

theorem lhs0_0 (i : S1000x512.Idx) (s : D0.contr.Idx) : (D0.lhsIdx i s 0).val = (i 0).val := by
  unfold DotDims.lhsIdx
  rw [dif_neg (show ¬(0 : Fin S1000x512.rank) ∈ D0.lhsBatch by decide), dif_pos (show (0 : Fin S1000x512.rank) ∈ D0.lhsNonContracting by decide)]
  rfl
theorem lhs0_1 (i : S1000x512.Idx) (s : D0.contr.Idx) : (D0.lhsIdx i s 1).val = (s ⟨0, by decide⟩).val :=
  D0.lhsIdx_val_of_single rfl i s
theorem rhs0_0 (i : S1000x512.Idx) (s : D0.contr.Idx) : (D0.rhsIdx i s 0).val = (s ⟨0, by decide⟩).val :=
  D0.rhsIdx_val_of_single rfl i s
theorem rhs0_1 (i : S1000x512.Idx) (s : D0.contr.Idx) : (D0.rhsIdx i s 1).val = (i 1).val := by
  unfold DotDims.rhsIdx
  rw [dif_neg (show ¬(1 : Fin S512x512.rank) ∈ D0.rhsBatch by decide), dif_pos (show (1 : Fin S512x512.rank) ∈ D0.rhsNonContracting by decide)]
  rfl

/-- Result entry `(p, q)` and contraction coordinate `k` read the left operand at `(p, k)`, -/
theorem lhs0 (p : Fin 1000) (q : Fin 512) (k : Fin 512) :
    D0.lhsIdx (ix2 p q) ((contrEquiv1 D0 512 rfl rfl).symm k) = ix2 p k := funext fun a => Fin.ext (by
  match a with
  | ⟨0, _⟩ => exact lhs0_0 _ _
  | ⟨1, _⟩ => exact (lhs0_1 _ _).trans (contrEquiv1_symm_val D0 512 rfl rfl k))

/-- and the right operand at `(k, q)`. -/
theorem rhs0 (p : Fin 1000) (q : Fin 512) (k : Fin 512) :
    D0.rhsIdx (ix2 p q) ((contrEquiv1 D0 512 rfl rfl).symm k) = ix2 k q := funext fun a => Fin.ext (by
  match a with
  | ⟨0, _⟩ => exact (rhs0_0 _ _).trans (contrEquiv1_symm_val D0 512 rfl rfl k)
  | ⟨1, _⟩ => exact rhs0_1 _ _)

/-! ### The second layer's product (1000 rows of 512 against 512 × 256) -/

theorem lhs1_0 (i : S1000x256.Idx) (s : D1.contr.Idx) : (D1.lhsIdx i s 0).val = (i 0).val := by
  unfold DotDims.lhsIdx
  rw [dif_neg (show ¬(0 : Fin S1000x512.rank) ∈ D1.lhsBatch by decide), dif_pos (show (0 : Fin S1000x512.rank) ∈ D1.lhsNonContracting by decide)]
  rfl
theorem lhs1_1 (i : S1000x256.Idx) (s : D1.contr.Idx) : (D1.lhsIdx i s 1).val = (s ⟨0, by decide⟩).val :=
  D1.lhsIdx_val_of_single rfl i s
theorem rhs1_0 (i : S1000x256.Idx) (s : D1.contr.Idx) : (D1.rhsIdx i s 0).val = (s ⟨0, by decide⟩).val :=
  D1.rhsIdx_val_of_single rfl i s
theorem rhs1_1 (i : S1000x256.Idx) (s : D1.contr.Idx) : (D1.rhsIdx i s 1).val = (i 1).val := by
  unfold DotDims.rhsIdx
  rw [dif_neg (show ¬(1 : Fin S512x256.rank) ∈ D1.rhsBatch by decide), dif_pos (show (1 : Fin S512x256.rank) ∈ D1.rhsNonContracting by decide)]
  rfl

/-- Result entry `(p, q)` and contraction coordinate `k` read the left operand at `(p, k)`, -/
theorem lhs1 (p : Fin 1000) (q : Fin 256) (k : Fin 512) :
    D1.lhsIdx (ix2 p q) ((contrEquiv1 D1 512 rfl rfl).symm k) = ix2 p k := funext fun a => Fin.ext (by
  match a with
  | ⟨0, _⟩ => exact lhs1_0 _ _
  | ⟨1, _⟩ => exact (lhs1_1 _ _).trans (contrEquiv1_symm_val D1 512 rfl rfl k))

/-- and the right operand at `(k, q)`. -/
theorem rhs1 (p : Fin 1000) (q : Fin 256) (k : Fin 512) :
    D1.rhsIdx (ix2 p q) ((contrEquiv1 D1 512 rfl rfl).symm k) = ix2 k q := funext fun a => Fin.ext (by
  match a with
  | ⟨0, _⟩ => exact (rhs1_0 _ _).trans (contrEquiv1_symm_val D1 512 rfl rfl k)
  | ⟨1, _⟩ => exact rhs1_1 _ _)

/-! ## The stored values -/

/-- The first layer's point stores, at `(p, q)`, `max (∑ₖ x0(p,k)·x1(k,q) + x2(0,q), 0)`. -/
theorem pay0_apply (x0 : Vec Ideal S1000x512 .f32) (x1 : Vec Ideal S512x512 .f32) (x2 : Vec Ideal S1x512 .f32)
    (p : Fin 1000) (q : Fin 512) :
    k0_pay1 (F := Ideal) x0 x1 x2 (ix2 p q)
      = max ((∑ k : Fin 512, x0 (ix2 p k) * x1 (ix2 k q)) + x2 (ix2 (0 : Fin 1) q)) (FloatOps.ofBits (F := Ideal) .f32 0x00000000#32) := by
  unfold k0_pay1
  simp only [shapeCast_self]
  refine congrArg₂ max (congrArg₂ (· + ·) ?_ ?_) rfl
  · exact Cert.LibContract1.matmul_zero_single D0 512 rfl rfl _ _ (ix2 p q) (fun k => ix2 p k) (fun k => ix2 k q)
      (lhs0 p q) (rhs0 p q)
  · exact broadcastTo_1b_ab_apply x2 broadcasts_S1x512_S1000x512 p q

/-- The second layer's point stores, at `(p, q)`, `∑ₖ x0(p,k)·x1(k,q) + x2(0,q)`. -/
theorem pay1_apply (x0 : Vec Ideal S1000x512 .f32) (x1 : Vec Ideal S512x256 .f32) (x2 : Vec Ideal S1x256 .f32)
    (p : Fin 1000) (q : Fin 256) :
    k1_pay1 (F := Ideal) x0 x1 x2 (ix2 p q)
      = (∑ k : Fin 512, x0 (ix2 p k) * x1 (ix2 k q)) + x2 (ix2 (0 : Fin 1) q) := by
  unfold k1_pay1
  simp only [shapeCast_self]
  refine congrArg₂ (· + ·) ?_ ?_
  · exact Cert.LibContract1.matmul_zero_single D1 512 rfl rfl _ _ (ix2 p q) (fun k => ix2 p k) (fun k => ix2 k q)
      (lhs1 p q) (rhs1 p q)
  · exact broadcastTo_1b_ab_apply x2 broadcasts_S1x256_S1000x256 p q

end Cert.KernelIdeal.Body

end
-- ==== Proof.Spec.lean ====
/-
  The two dense layers of the network as functions of whole arrays, index by index, on the extended reals.

  A layer takes the aggregated node features `A` (one row per node), a weight matrix `Wt` and a bias row `b`;
  entry `(r, c)` of its result is the inner product of row `r` of `A` with column `c` of `Wt`, plus `b` at `c`.
  The first layer ends in a rectifier (the larger of that number and zero), the second does not.
-/
import Idealize.ShloMosaic.PureOps.Ideal
import Idealize.ShloMosaic.Lib.ValueIdx

noncomputable section

namespace Cert.Layers

open Idealize.ShloMosaic Idealize.ShloMosaic.ValueIdx

/-- The first layer: `max (∑ₖ A(r,k)·Wt(k,c) + b(0,c), 0)` at `(r, c)`, over 50000 nodes and 512 features. -/
def layer1 (A : (⟨2, ![50000, 512]⟩ : Shape).Idx → EReal) (Wt : (⟨2, ![512, 512]⟩ : Shape).Idx → EReal)
    (b : (⟨2, ![1, 512]⟩ : Shape).Idx → EReal) : (⟨2, ![50000, 512]⟩ : Shape).Idx → EReal :=
  fun i => max ((∑ k : Fin 512, A (ix2 (i 0) k) * Wt (ix2 k (i 1))) + b (ix2 (0 : Fin 1) (i 1)))
    (FloatOps.ofBits (F := Ideal) .f32 0x00000000#32)

/-- The second layer: `∑ₖ A(r,k)·Wt(k,c) + b(0,c)` at `(r, c)`, from 512 features to 256 classes. -/
def layer2 (A : (⟨2, ![50000, 512]⟩ : Shape).Idx → EReal) (Wt : (⟨2, ![512, 256]⟩ : Shape).Idx → EReal)
    (b : (⟨2, ![1, 256]⟩ : Shape).Idx → EReal) : (⟨2, ![50000, 256]⟩ : Shape).Idx → EReal :=
  fun i => (∑ k : Fin 512, A (ix2 (i 0) k) * Wt (ix2 k (i 1))) + b (ix2 (0 : Fin 1) (i 1))

end Cert.Layers

end
-- ==== Proof.Region0.lean ====
/-
  The first layer's grid region: its output array after the region, as one function of the arrays it finds.

  The grid has 50 points; point `t` reads rows `1000·t … 1000·t + 999` of the aggregated features (all 512 columns),
  the whole weight matrix and the whole bias row, and writes back rows `1000·t … 1000·t + 999` of the output.  What
  it writes at entry `(p, q)` of its block is the layer's formula at row `1000·t + p` and column `q` of the whole
  arrays, so the 50 written blocks are the blocks of ONE function of the whole arrays, `layer1`; they tile the output's
  50000 rows (row `r` lies in the block of point `r / 1000`), hence after the last write-back the output array is
  that function everywhere.
-/
import proofs.«147113_j12386685682456_1_alg».proof.Proof.Gen.KernelIdeal.Frame
import proofs.«147113_j12386685682456_1_alg».proof.Proof.KernelBody
import proofs.«147113_j12386685682456_1_alg».proof.Proof.Spec
import Idealize.ShloMosaic.Lib.Pipeline.Value

set_option maxRecDepth 16384

noncomputable section

namespace Cert.KernelIdeal.Region0

open Cert.KernelIdeal Cert.KernelIdeal.Gen Cert.KernelIdeal.Body Cert.Layers
open Idealize.ShloMosaic Idealize.ShloMosaic.TcCoe Idealize.ShloMosaic.ValueIdx Idealize.SL.Sem
open Idealize.ShloMosaic.Pipeline (Dat)

variable (V : (c : Dev nD) → (b : Ref sig .tc) → Buf (Elt Ideal) ((c : Thread nD τ).loc b))

theorem hz : (![0, 0] : Fin 2 → Nat) = fun _ => 0 := funext fun a => by fin_cases a <;> rfl

/-- The block indices at point `t`, decided over the grid: the feature rows and the output rows move with the
    point, the weights and the bias stay at block (0, 0). -/
theorem idx_facts : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = t.val ∧ win0_3.index t (1 : Fin 2) = 0 :=
  (by decide +kernel : ∀ t : Fin grid0.N, _)

/-- One entry of one point, over variables: if the loaded row `p`, the loaded column `q` and the loaded bias at `q`
    are row `i 0`, column `i 1` and the bias at `i 1` of whole arrays `A`, `Wt`, `b`, the stored entry `(p, q)` is the
    layer's formula at `i`. -/
theorem entry (A : (⟨2, ![50000, 512]⟩ : Shape).Idx → EReal) (Wt : (⟨2, ![512, 512]⟩ : Shape).Idx → EReal)
    (b : (⟨2, ![1, 512]⟩ : Shape).Idx → EReal)
    (x0 : Vec Ideal S1000x512 .f32) (x1 : Vec Ideal S512x512 .f32) (x2 : Vec Ideal S1x512 .f32)
    (i : (⟨2, ![50000, 512]⟩ : Shape).Idx) (p : Fin 1000) (q : Fin 512)
    (h0 : ∀ k : Fin 512, x0 (ix2 p k) = A (ix2 (i 0) k)) (h1 : ∀ k : Fin 512, x1 (ix2 k q) = Wt (ix2 k (i 1)))
    (h2 : x2 (ix2 (0 : Fin 1) q) = b (ix2 (0 : Fin 1) (i 1))) :
    k0_pay1 (F := Ideal) x0 x1 x2 (ix2 p q) = layer1 A Wt b i := by
  rw [pay0_apply]
  unfold layer1
  simp only [h0, h1, h2]

/-- WHAT POINT `t` WRITES BACK is block `t` of `layer1` of the arrays the region finds. -/
theorem flushed_eq (c : Dev nD) (t : Fin cfg0.N) :
    (dat0 V c).flushed 3 t
      = ((cfg0.win 3).blk t).view.read (Elt Ideal) (layer1 (V c main_v14) (V c main_arg2) (V c main_v15)) := by
  show (cfg0.win 3).cut (grid0.coords t) ((dat0 V c).after 3 t) = _
  rw [after0_3]
  unfold out0_3
  rw [View.canon_unit_zero hz]
  simp only [View.ld_unit_zero (S := S1000x512) hz, View.ld_unit_zero (S := S512x512) hz, View.ld_unit_zero (S := S1x512) hz]
  obtain ⟨e00, e01, e10, e11, e20, e21, e30, e31⟩ := idx_facts t
  funext j
  obtain ⟨p, q, rfl⟩ : ∃ (p : Fin 1000) (q : Fin 512), j = ix2 p q := ⟨j 0, j 1, eq_ix2 j⟩
  refine entry (V c main_v14) (V c main_arg2) (V c main_v15) (iblk0 V c 0 t) (iblk0 V c 1 t) (iblk0 V c 2 t)
    (((cfg0.win 3).blk t).view.emb (ix2 p q)) p q (fun k => ?_) (fun k => ?_) ?_
  · -- row `p` of the feature block is row `1000·t + p` of the feature array
    show V c main_v14 (((cfg0.win 0).blk t).view.emb (ix2 p k)) = V c main_v14 (ix2 ((((cfg0.win 3).blk t).view.emb (ix2 p q)) 0) k)
    have h : ((cfg0.win 0).blk t).view.emb (ix2 p k) = ix2 ((((cfg0.win 3).blk t).view.emb (ix2 p q)) 0) k := by
      funext a; apply Fin.ext
      match a with
      | ⟨0, _⟩ => show win0_0.index t (0 : Fin 2) * 1000 + 1 * p.val = win0_3.index t (0 : Fin 2) * 1000 + 1 * p.val; omega
      | ⟨1, _⟩ => show win0_0.index t (1 : Fin 2) * 512 + 1 * k.val = k.val; omega
    exact congrArg (V c main_v14) h
  · -- the weight block is the weight array
    show V c main_arg2 (((cfg0.win 1).blk t).view.emb (ix2 k q)) = V c main_arg2 (ix2 k ((((cfg0.win 3).blk t).view.emb (ix2 p q)) 1))
    have h : ((cfg0.win 1).blk t).view.emb (ix2 k q) = ix2 k ((((cfg0.win 3).blk t).view.emb (ix2 p q)) 1) := by
      funext a; apply Fin.ext
      match a with
      | ⟨0, _⟩ => show win0_1.index t (0 : Fin 2) * 512 + 1 * k.val = k.val; omega
      | ⟨1, _⟩ => show win0_1.index t (1 : Fin 2) * 512 + 1 * q.val = win0_3.index t (1 : Fin 2) * 512 + 1 * q.val; omega
    exact congrArg (V c main_arg2) h
  · -- the bias block is the bias row
    show V c main_v15 (((cfg0.win 2).blk t).view.emb (ix2 (0 : Fin 1) q)) = V c main_v15 (ix2 (0 : Fin 1) ((((cfg0.win 3).blk t).view.emb (ix2 p q)) 1))
    have h : ((cfg0.win 2).blk t).view.emb (ix2 (0 : Fin 1) q) = ix2 (0 : Fin 1) ((((cfg0.win 3).blk t).view.emb (ix2 p q)) 1) := by
      funext a; apply Fin.ext
      match a with
      | ⟨0, _⟩ => show win0_2.index t (0 : Fin 2) * 1 + 1 * 0 = 0; omega
      | ⟨1, _⟩ => show win0_2.index t (1 : Fin 2) * 512 + 1 * q.val = win0_3.index t (1 : Fin 2) * 512 + 1 * q.val; omega
    exact congrArg (V c main_v15) h

/-- An index of the output array is in point `t`'s block iff each coordinate is in the block's range on its axis. -/
theorem mem_blk (t : Fin cfg0.N) (i : S50000x512.Idx) :
    i ∈ ((cfg0.win 3).blk t).view.set ↔ ∀ a : Fin 2, win0_3.index t a * S1000x512.size a ≤ (i a).val ∧ (i a).val < win0_3.index t a * S1000x512.size a + S1000x512.size a := by
  show i ∈ ((View.whole main_v16).slice (win0_3.rect t)).set ↔ _
  rw [View.set_slice_whole, Rect.mem_set_unit]
  exact Iff.rfl

/-- Every entry of the output array lies in some point's block: row `r` in the block of point `r / 1000`. -/
theorem cover (i : S50000x512.Idx) : ∃ t : Fin cfg0.N, (cfg0.win 3).flush t = true ∧ i ∈ ((cfg0.win 3).blk t).view.set := by
  have hN : grid0.N = 50 := N_0
  have hi0 : (i 0).val < 50000 := (i 0).isLt
  have hi1 : (i 1).val < 512 := (i 1).isLt
  let t : Fin cfg0.N := ⟨(i 0).val / 1000, by show (i 0).val / 1000 < grid0.N; omega⟩
  have ht : t.val = (i 0).val / 1000 := rfl
  obtain ⟨e00, e01, e10, e11, e20, e21, e30, e31⟩ := idx_facts t
  refine ⟨t, flush0_3 t, ?_⟩
  rw [mem_blk]
  intro a
  match a with
  | ⟨0, _⟩ => show win0_3.index t (0 : Fin 2) * 1000 ≤ (i 0).val ∧ (i 0).val < win0_3.index t (0 : Fin 2) * 1000 + 1000; omega
  | ⟨1, _⟩ => show win0_3.index t (1 : Fin 2) * 512 ≤ (i 1).val ∧ (i 1).val < win0_3.index t (1 : Fin 2) * 512 + 512; omega

/-- THE OUTPUT ARRAY after the region: `layer1` of the feature, weight and bias arrays as the region finds them. -/
theorem final (c : Dev nD) :
    (dat0 V c).arrAt 3 cfg0.N = layer1 (V c main_v14) (V c main_arg2) (V c main_v15) :=
  (dat0 V c).arrAt_eq_of_cover 3 (layer1 (V c main_v14) (V c main_arg2) (V c main_v15)) (fun t _ => flushed_eq V c t) cover

end Cert.KernelIdeal.Region0

end
-- ==== Proof.Region1.lean ====
/-
  The second layer's grid region: its output array after the region, as one function of the arrays it finds.

  The grid has 50 points; point `t` reads rows `1000·t … 1000·t + 999` of the aggregated features (all 512 columns),
  the whole weight matrix and the whole bias row, and writes back rows `1000·t … 1000·t + 999` of the output.  What
  it writes at entry `(p, q)` of its block is the layer's formula at row `1000·t + p` and column `q` of the whole
  arrays, so the 50 written blocks are the blocks of ONE function of the whole arrays, `layer2`; they tile the output's
  50000 rows (row `r` lies in the block of point `r / 1000`), hence after the last write-back the output array is
  that function everywhere.
-/
import proofs.«147113_j12386685682456_1_alg».proof.Proof.Gen.KernelIdeal.Frame
import proofs.«147113_j12386685682456_1_alg».proof.Proof.KernelBody
import proofs.«147113_j12386685682456_1_alg».proof.Proof.Spec
import Idealize.ShloMosaic.Lib.Pipeline.Value

set_option maxRecDepth 16384

noncomputable section

namespace Cert.KernelIdeal.Region1

open Cert.KernelIdeal Cert.KernelIdeal.Gen Cert.KernelIdeal.Body Cert.Layers
open Idealize.ShloMosaic Idealize.ShloMosaic.TcCoe Idealize.ShloMosaic.ValueIdx Idealize.SL.Sem
open Idealize.ShloMosaic.Pipeline (Dat)

variable (V : (c : Dev nD) → (b : Ref sig .tc) → Buf (Elt Ideal) ((c : Thread nD τ).loc b))

theorem hz : (![0, 0] : Fin 2 → Nat) = fun _ => 0 := funext fun a => by fin_cases a <;> rfl

/-- The block indices at point `t`, decided over the grid: the feature rows and the output rows move with the
    point, the weights and the bias stay at block (0, 0). -/
theorem idx_facts : ∀ t : Fin cfg1.N,
    win1_0.index t (0 : Fin 2) = t.val ∧ win1_0.index t (1 : Fin 2) = 0
    ∧ win1_1.index t (0 : Fin 2) = 0 ∧ win1_1.index t (1 : Fin 2) = 0
    ∧ win1_2.index t (0 : Fin 2) = 0 ∧ win1_2.index t (1 : Fin 2) = 0
    ∧ win1_3.index t (0 : Fin 2) = t.val ∧ win1_3.index t (1 : Fin 2) = 0 :=
  (by decide +kernel : ∀ t : Fin grid1.N, _)

/-- One entry of one point, over variables: if the loaded row `p`, the loaded column `q` and the loaded bias at `q`
    are row `i 0`, column `i 1` and the bias at `i 1` of whole arrays `A`, `Wt`, `b`, the stored entry `(p, q)` is the
    layer's formula at `i`. -/
theorem entry (A : (⟨2, ![50000, 512]⟩ : Shape).Idx → EReal) (Wt : (⟨2, ![512, 256]⟩ : Shape).Idx → EReal)
    (b : (⟨2, ![1, 256]⟩ : Shape).Idx → EReal)
    (x0 : Vec Ideal S1000x512 .f32) (x1 : Vec Ideal S512x256 .f32) (x2 : Vec Ideal S1x256 .f32)
    (i : (⟨2, ![50000, 256]⟩ : Shape).Idx) (p : Fin 1000) (q : Fin 256)
    (h0 : ∀ k : Fin 512, x0 (ix2 p k) = A (ix2 (i 0) k)) (h1 : ∀ k : Fin 512, x1 (ix2 k q) = Wt (ix2 k (i 1)))
    (h2 : x2 (ix2 (0 : Fin 1) q) = b (ix2 (0 : Fin 1) (i 1))) :
    k1_pay1 (F := Ideal) x0 x1 x2 (ix2 p q) = layer2 A Wt b i := by
  rw [pay1_apply]
  unfold layer2
  simp only [h0, h1, h2]

/-- WHAT POINT `t` WRITES BACK is block `t` of `layer2` of the arrays the region finds. -/
theorem flushed_eq (c : Dev nD) (t : Fin cfg1.N) :
    (dat1 V c).flushed 3 t
      = ((cfg1.win 3).blk t).view.read (Elt Ideal) (layer2 (V c main_v27) (V c main_arg4) (V c main_v28)) := by
  show (cfg1.win 3).cut (grid1.coords t) ((dat1 V c).after 3 t) = _
  rw [after1_3]
  unfold out1_3
  rw [View.canon_unit_zero hz]
  simp only [View.ld_unit_zero (S := S1000x512) hz, View.ld_unit_zero (S := S512x256) hz, View.ld_unit_zero (S := S1x256) hz]
  obtain ⟨e00, e01, e10, e11, e20, e21, e30, e31⟩ := idx_facts t
  funext j
  obtain ⟨p, q, rfl⟩ : ∃ (p : Fin 1000) (q : Fin 256), j = ix2 p q := ⟨j 0, j 1, eq_ix2 j⟩
  refine entry (V c main_v27) (V c main_arg4) (V c main_v28) (iblk1 V c 0 t) (iblk1 V c 1 t) (iblk1 V c 2 t)
    (((cfg1.win 3).blk t).view.emb (ix2 p q)) p q (fun k => ?_) (fun k => ?_) ?_
  · -- row `p` of the feature block is row `1000·t + p` of the feature array
    show V c main_v27 (((cfg1.win 0).blk t).view.emb (ix2 p k)) = V c main_v27 (ix2 ((((cfg1.win 3).blk t).view.emb (ix2 p q)) 0) k)
    have h : ((cfg1.win 0).blk t).view.emb (ix2 p k) = ix2 ((((cfg1.win 3).blk t).view.emb (ix2 p q)) 0) k := by
      funext a; apply Fin.ext
      match a with
      | ⟨0, _⟩ => show win1_0.index t (0 : Fin 2) * 1000 + 1 * p.val = win1_3.index t (0 : Fin 2) * 1000 + 1 * p.val; omega
      | ⟨1, _⟩ => show win1_0.index t (1 : Fin 2) * 512 + 1 * k.val = k.val; omega
    exact congrArg (V c main_v27) h
  · -- the weight block is the weight array
    show V c main_arg4 (((cfg1.win 1).blk t).view.emb (ix2 k q)) = V c main_arg4 (ix2 k ((((cfg1.win 3).blk t).view.emb (ix2 p q)) 1))
    have h : ((cfg1.win 1).blk t).view.emb (ix2 k q) = ix2 k ((((cfg1.win 3).blk t).view.emb (ix2 p q)) 1) := by
      funext a; apply Fin.ext
      match a with
      | ⟨0, _⟩ => show win1_1.index t (0 : Fin 2) * 512 + 1 * k.val = k.val; omega
      | ⟨1, _⟩ => show win1_1.index t (1 : Fin 2) * 256 + 1 * q.val = win1_3.index t (1 : Fin 2) * 256 + 1 * q.val; omega
    exact congrArg (V c main_arg4) h
  · -- the bias block is the bias row
    show V c main_v28 (((cfg1.win 2).blk t).view.emb (ix2 (0 : Fin 1) q)) = V c main_v28 (ix2 (0 : Fin 1) ((((cfg1.win 3).blk t).view.emb (ix2 p q)) 1))
    have h : ((cfg1.win 2).blk t).view.emb (ix2 (0 : Fin 1) q) = ix2 (0 : Fin 1) ((((cfg1.win 3).blk t).view.emb (ix2 p q)) 1) := by
      funext a; apply Fin.ext
      match a with
      | ⟨0, _⟩ => show win1_2.index t (0 : Fin 2) * 1 + 1 * 0 = 0; omega
      | ⟨1, _⟩ => show win1_2.index t (1 : Fin 2) * 256 + 1 * q.val = win1_3.index t (1 : Fin 2) * 256 + 1 * q.val; omega
    exact congrArg (V c main_v28) h

/-- An index of the output array is in point `t`'s block iff each coordinate is in the block's range on its axis. -/
theorem mem_blk (t : Fin cfg1.N) (i : S50000x256.Idx) :
    i ∈ ((cfg1.win 3).blk t).view.set ↔ ∀ a : Fin 2, win1_3.index t a * S1000x256.size a ≤ (i a).val ∧ (i a).val < win1_3.index t a * S1000x256.size a + S1000x256.size a := by
  show i ∈ ((View.whole main_v29).slice (win1_3.rect t)).set ↔ _
  rw [View.set_slice_whole, Rect.mem_set_unit]
  exact Iff.rfl

/-- Every entry of the output array lies in some point's block: row `r` in the block of point `r / 1000`. -/
theorem cover (i : S50000x256.Idx) : ∃ t : Fin cfg1.N, (cfg1.win 3).flush t = true ∧ i ∈ ((cfg1.win 3).blk t).view.set := by
  have hN : grid1.N = 50 := N_1
  have hi0 : (i 0).val < 50000 := (i 0).isLt
  have hi1 : (i 1).val < 256 := (i 1).isLt
  let t : Fin cfg1.N := ⟨(i 0).val / 1000, by show (i 0).val / 1000 < grid1.N; omega⟩
  have ht : t.val = (i 0).val / 1000 := rfl
  obtain ⟨e00, e01, e10, e11, e20, e21, e30, e31⟩ := idx_facts t
  refine ⟨t, flush1_3 t, ?_⟩
  rw [mem_blk]
  intro a
  match a with
  | ⟨0, _⟩ => show win1_3.index t (0 : Fin 2) * 1000 ≤ (i 0).val ∧ (i 0).val < win1_3.index t (0 : Fin 2) * 1000 + 1000; omega
  | ⟨1, _⟩ => show win1_3.index t (1 : Fin 2) * 256 ≤ (i 1).val ∧ (i 1).val < win1_3.index t (1 : Fin 2) * 256 + 256; omega

/-- THE OUTPUT ARRAY after the region: `layer2` of the feature, weight and bias arrays as the region finds them. -/
theorem final (c : Dev nD) :
    (dat1 V c).arrAt 3 cfg1.N = layer2 (V c main_v27) (V c main_arg4) (V c main_v28) :=
  (dat1 V c).arrAt_eq_of_cover 3 (layer2 (V c main_v27) (V c main_arg4) (V c main_v28)) (fun t _ => flushed_eq V c t) cover

end Cert.KernelIdeal.Region1

end
-- ==== Proof.RefSide.lean ====
/-
  The reference program, stage by stage, in the words of the two layers.

  The reference aggregates the node features over the edges, applies the first dense layer and the rectifier,
  aggregates again and applies the second dense layer.  Read at an index, its first layer's result is `layer1` of the
  first aggregation, the first weight matrix and the first bias laid out as one row; its final result is `layer2` of
  the second aggregation, the second weight matrix and the second bias as one row.  The second aggregation is a function
  `agg2` of the hidden features and the edge list alone (a gather along the edges' sources, a sum into the edges'
  targets, plus the features themselves): it is never opened.
-/
import proofs.«147113_j12386685682456_1_alg».proof.Defs
import proofs.«147113_j12386685682456_1_alg».proof.Proof.Gen.ReferenceIdeal.Read
import proofs.«147113_j12386685682456_1_alg».proof.Proof.Spec
import Idealize.ShloMosaic.Lib.ValueLayout

noncomputable section

namespace Cert.ReferenceIdeal.RefValue

open Cert.ReferenceIdeal Cert.ReferenceIdeal.Read Cert.Layers Idealize.ShloMosaic Idealize.ShloMosaic.ValueIdx

variable {F : FTy → Type} [FloatOps F]

/-- The second neighbourhood aggregation: the features `h` plus, for every node, the sum of `h` over the sources of
    the edges that end in it. -/
def agg2 (h : (⟨S50000x512, .f32⟩ : BufTy).Contents (Elt F)) (x1 : (⟨S2x400000, .i32⟩ : BufTy).Contents (Elt F)) :
    (⟨S50000x512, .f32⟩ : BufTy).Contents (Elt F) :=
  addf h (Host.scatterAdd scatter_S50000x512_S400000x1_S400000x512_1_0_0_1 (val_main_v27 (F := F)) (val_main_v28 (F := F) x1)
    (Host.gather gather_S50000x512_S400000x1_S400000x512_1_0_n_n_0_1_1512 h (val_main_v25 (F := F) x1)))

/-- The reference's second aggregation is `agg2` of its first layer's result. -/
theorem v30_eq (x0 : (⟨S50000x512, .f32⟩ : BufTy).Contents (Elt F)) (x1 : (⟨S2x400000, .i32⟩ : BufTy).Contents (Elt F))
    (x2 : (⟨S512x512, .f32⟩ : BufTy).Contents (Elt F)) (x3 : (⟨S512, .f32⟩ : BufTy).Contents (Elt F)) :
    val_main_v30 (F := F) x0 x1 x2 x3 = agg2 (val_main_v19 (F := F) x0 x1 x2 x3) x1 := rfl

/-! ## The index maps of the two products and the two bias broadcasts, in coordinates -/

theorem l15 (i : S50000x512.Idx) (k : Fin 512) : lidx_main_v15 i k = ix2 (i 0) k :=
  funext fun a => Fin.ext (by match a with | ⟨0, _⟩ => rfl | ⟨1, _⟩ => rfl)
theorem r15 (i : S50000x512.Idx) (k : Fin 512) : ridx_main_v15 i k = ix2 k (i 1) :=
  funext fun a => Fin.ext (by match a with | ⟨0, _⟩ => rfl | ⟨1, _⟩ => rfl)
theorem b17 (i : S50000x512.Idx) : idx_main_v16 (idx_main_v17 i) = ix1 (i 1) :=
  funext fun a => Fin.ext (by match a with | ⟨0, _⟩ => rfl)
theorem l31 (i : S50000x256.Idx) (k : Fin 512) : lidx_main_v31 i k = ix2 (i 0) k :=
  funext fun a => Fin.ext (by match a with | ⟨0, _⟩ => rfl | ⟨1, _⟩ => rfl)
theorem r31 (i : S50000x256.Idx) (k : Fin 512) : ridx_main_v31 i k = ix2 k (i 1) :=
  funext fun a => Fin.ext (by match a with | ⟨0, _⟩ => rfl | ⟨1, _⟩ => rfl)
theorem b33 (i : S50000x256.Idx) : idx_main_v32 (idx_main_v33 i) = ix1 (i 1) :=
  funext fun a => Fin.ext (by match a with | ⟨0, _⟩ => rfl)

/-! ## The two layers -/

/-- The reference's rectified first layer is `layer1` of the first aggregation, the weights and the bias as a row. -/
theorem v19_eq_layer1 (x0 : (⟨S50000x512, .f32⟩ : BufTy).Contents (Elt Ideal)) (x1 : (⟨S2x400000, .i32⟩ : BufTy).Contents (Elt Ideal))
    (x2 : (⟨S512x512, .f32⟩ : BufTy).Contents (Elt Ideal)) (x3 : (⟨S512, .f32⟩ : BufTy).Contents (Elt Ideal))
    (h : (⟨1, ![512]⟩ : Shape).ShapeCasts ⟨2, ![1, 512]⟩) :
    val_main_v19 (F := Ideal) x0 x1 x2 x3 = layer1 (val_main_v14 (F := Ideal) x0 x1) x2 (shapeCast ⟨2, ![1, 512]⟩ x3 h) := by
  funext i
  rw [val_main_v19_apply, val_main_v18_apply, val_main_v15_apply, val_main_v17_apply, val_main_v16_apply,
    val_main_call0_v0_apply, val_main_call0_cst_apply]
  unfold layer1
  rw [shapeCast_a_1a_apply x3 h (0 : Fin 1) (i 1)]
  simp only [l15, r15, b17]
  rfl

/-- The reference's result is `layer2` of its second aggregation, the second weights and the second bias as a row. -/
theorem v34_eq_layer2 (x0 : (⟨S50000x512, .f32⟩ : BufTy).Contents (Elt Ideal)) (x1 : (⟨S2x400000, .i32⟩ : BufTy).Contents (Elt Ideal))
    (x2 : (⟨S512x512, .f32⟩ : BufTy).Contents (Elt Ideal)) (x3 : (⟨S512, .f32⟩ : BufTy).Contents (Elt Ideal))
    (x4 : (⟨S512x256, .f32⟩ : BufTy).Contents (Elt Ideal)) (x5 : (⟨S256, .f32⟩ : BufTy).Contents (Elt Ideal))
    (h : (⟨1, ![256]⟩ : Shape).ShapeCasts ⟨2, ![1, 256]⟩) :
    val_main_v34 (F := Ideal) x0 x1 x2 x3 x4 x5
      = layer2 (val_main_v30 (F := Ideal) x0 x1 x2 x3) x4 (shapeCast ⟨2, ![1, 256]⟩ x5 h) := by
  funext i
  rw [val_main_v34_apply, val_main_v31_apply, val_main_v33_apply, val_main_v32_apply]
  unfold layer2
  rw [shapeCast_a_1a_apply x5 h (0 : Fin 1) (i 1)]
  simp only [l31, r31, b33]
  rfl

end Cert.ReferenceIdeal.RefValue

end
-- ==== Proof.Entry.lean ====
/-
  What each grid region finds in its three input arrays, as terms of the launch memory.

  Before the first region the host has aggregated the launch features over the launch edges and laid the first bias
  out as a row; the first weight matrix is as launched.  Between the regions the host aggregates the first region's
  output over the same edges (`agg2`: the edge list is re-read from the buffers the first stretch wrote, which the first
  region does not touch) and lays the second bias out as a row; the second weight matrix is as launched.
-/
import proofs.«147113_j12386685682456_1_alg».proof.Proof.Gen.KernelIdeal.Frame
import proofs.«147113_j12386685682456_1_alg».proof.Proof.RefSide

set_option maxRecDepth 16384

noncomputable section

namespace Cert.KernelIdeal.Entry

open Cert.KernelIdeal Cert.KernelIdeal.Gen
open Idealize.ShloMosaic Idealize.ShloMosaic.TcCoe Idealize.SL.Sem Idealize.ShloMosaic.StableHlo
open Idealize.ShloMosaic.Pipeline (Dat)

variable {F : FTy → Type} [FloatOps F]
variable (m : (ℓ : Loc nD τ sig) → Buf (Elt F) ℓ) (ρ : Dev nD → PrngReg)

/-! ## The first region's inputs -/

/-- The features the first region reads: the reference's first aggregation of the launch features and edges. -/
theorem feat0 (c : Dev nD) :
    V1 m ρ c main_v14 = Cert.ReferenceIdeal.Read.val_main_v14 (F := F) (m ((c : Thread nD τ).loc main_arg0)) (m ((c : Thread nD τ).loc main_arg1)) := by
  show StableHlo.after hostOps0 (W0 m ρ c) (Proc.devRef .tc main_v14) = _
  after_results
  rfl

/-- Its weights: the first weight matrix as launched. -/
theorem wts0 (c : Dev nD) : V1 m ρ c main_arg2 = m ((c : Thread nD τ).loc main_arg2) := by
  show StableHlo.after hostOps0 (W0 m ρ c) (Proc.devRef .tc main_arg2) = _
  after_results

/-- Its bias row: the first bias as launched, laid out as one row. -/
theorem bias0 (c : Dev nD) :
    V1 m ρ c main_v15 = shapeCast S1x512 (m ((c : Thread nD τ).loc main_arg3)) shapeCasts_S512_S1x512 := by
  show StableHlo.after hostOps0 (W0 m ρ c) (Proc.devRef .tc main_v15) = _
  after_results
  rfl

/-! ## The second region's inputs -/

/-- The edge sources and targets the second stretch re-reads are what the first stretch computed from the launch edges. -/
theorem src_kept (c : Dev nD) :
    W2 m ρ c (Proc.devRef .tc main_v1) = Cert.ReferenceIdeal.Read.val_main_v1 (F := F) (m ((c : Thread nD τ).loc main_arg1)) := by
  rw [W2_of_ne m ρ c main_v1 (by decide)]
  show StableHlo.after hostOps0 (W0 m ρ c) (Proc.devRef .tc main_v1) = _
  after_results
  rfl
theorem dst_kept (c : Dev nD) :
    W2 m ρ c (Proc.devRef .tc main_v3) = Cert.ReferenceIdeal.Read.val_main_v3 (F := F) (m ((c : Thread nD τ).loc main_arg1)) := by
  rw [W2_of_ne m ρ c main_v3 (by decide)]
  show StableHlo.after hostOps0 (W0 m ρ c) (Proc.devRef .tc main_v3) = _
  after_results
  rfl

/-- The features the second region reads: `agg2` of the first region's output array over the launch edges. -/
theorem feat1 (c : Dev nD) :
    V3 m ρ c main_v27 = Cert.ReferenceIdeal.RefValue.agg2 (F := F) ((dat0 (V1 m ρ) c).arrAt 3 cfg0.N) (m ((c : Thread nD τ).loc main_arg1)) := by
  show StableHlo.after hostOps1 (W2 m ρ c) (Proc.devRef .tc main_v27) = _
  after_results_simp
  rw [src_kept m ρ c, dst_kept m ρ c, show W2 m ρ c (Proc.devRef .tc main_v16) = _ from W2_arr m ρ c 3]
  rfl

/-- Its weights: the second weight matrix as launched. -/
theorem wts1 (c : Dev nD) : V3 m ρ c main_arg4 = m ((c : Thread nD τ).loc main_arg4) := by
  show StableHlo.after hostOps1 (W2 m ρ c) (Proc.devRef .tc main_arg4) = _
  after_results
  rw [W2_of_ne m ρ c main_arg4 (by decide)]
  show StableHlo.after hostOps0 (W0 m ρ c) (Proc.devRef .tc main_arg4) = _
  after_results

/-- Its bias row: the second bias as launched, laid out as one row. -/
theorem bias1 (c : Dev nD) :
    V3 m ρ c main_v28 = shapeCast S1x256 (m ((c : Thread nD τ).loc main_arg5)) shapeCasts_S256_S1x256 := by
  show StableHlo.after hostOps1 (W2 m ρ c) (Proc.devRef .tc main_v28) = _
  after_results
  rw [W2_of_ne m ρ c main_arg5 (by decide)]
  have e : W1 m ρ c (Proc.devRef .tc main_arg5) = m ((c : Thread nD τ).loc main_arg5) := by
    show StableHlo.after hostOps0 (W0 m ρ c) (Proc.devRef .tc main_arg5) = _
    after_results
  rw [e]
  rfl

end Cert.KernelIdeal.Entry

end
-- ==== Proof.KernelValue.lean ====
/-
  The kernel program's result as a function of the launch arrays.

  The result array is the second region's output array, which is the second layer of what that region finds: the
  aggregation over the edges of the first region's output, the second weights, the second bias as a row.  The first
  region's output is the rectified first layer of the aggregated launch features, the first weights, the first bias as a
  row.  Those are, stage by stage, the stages of the reference program; so the result is the reference's last stage of
  the launch arrays.
-/
import proofs.«147113_j12386685682456_1_alg».proof.Proof.RunResult
import proofs.«147113_j12386685682456_1_alg».proof.Proof.Region0
import proofs.«147113_j12386685682456_1_alg».proof.Proof.Region1
import proofs.«147113_j12386685682456_1_alg».proof.Proof.Entry
import proofs.«147113_j12386685682456_1_alg».proof.Proof.RefSide

set_option maxRecDepth 16384

noncomputable section

namespace Cert.KernelIdeal.Hand

open Cert.KernelIdeal Cert.KernelIdeal.Gen Cert.Layers
open Idealize.ShloMosaic Idealize.ShloMosaic.TcCoe Idealize.SL.Sem
open Idealize.ShloMosaic.Pipeline (Dat)
open Cert.ReferenceIdeal.Read (val_main_v14 val_main_v19 val_main_v30 val_main_v34)
open Cert.ReferenceIdeal.RefValue (agg2 v30_eq v19_eq_layer1 v34_eq_layer2)

variable (m : (ℓ : Loc nD τ sig) → Buf (Elt Ideal) ℓ) (ρ : Dev nD → PrngReg)

/-- The last boundary's contents at the result buffer are the reference's last stage of the launch arrays. -/
theorem result_eq (c : Dev nD) :
    W4 m ρ c (Proc.devRef .tc main_v29)
      = val_main_v34 (F := Ideal) (m ((c : Thread nD τ).loc main_arg0)) (m ((c : Thread nD τ).loc main_arg1))
          (m ((c : Thread nD τ).loc main_arg2)) (m ((c : Thread nD τ).loc main_arg3))
          (m ((c : Thread nD τ).loc main_arg4)) (m ((c : Thread nD τ).loc main_arg5)) := by
  rw [show W4 m ρ c (Proc.devRef .tc main_v29) = _ from W4_arr m ρ c 3, Region1.final (V3 m ρ) c,
    Entry.feat1 m ρ c, Entry.wts1 m ρ c, Entry.bias1 m ρ c,
    Region0.final (V1 m ρ) c, Entry.feat0 m ρ c, Entry.wts0 m ρ c, Entry.bias0 m ρ c,
    v34_eq_layer2 _ _ _ _ _ _ shapeCasts_S256_S1x256, v30_eq, v19_eq_layer1 _ _ _ _ shapeCasts_S512_S1x512]

/-- Every weakly fair execution of the kernel program ends with the result array at the reference's last stage of the
    launch arrays, the arguments unchanged. -/
theorem run : θ_run defs (onTc (τ := τ) (main (F := Ideal))) ⟨m, fun _ => 0, ρ⟩ (fun r => ∀ c : Dev nD,
      r.2.mem ((c.tc : Thread nD τ).loc main_v29)
        = val_main_v34 (F := Ideal) (m ((c : Thread nD τ).loc main_arg0)) (m ((c : Thread nD τ).loc main_arg1))
            (m ((c : Thread nD τ).loc main_arg2)) (m ((c : Thread nD τ).loc main_arg3))
            (m ((c : Thread nD τ).loc main_arg4)) (m ((c : Thread nD τ).loc main_arg5))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun r h c => ⟨(h c).1.trans (result_eq m ρ c), (h c).2⟩) (run_result m ρ)

end Cert.KernelIdeal.Hand

end
-- ==== Proof.lean ====
/-
  Two graph-convolution layers: a grid-kernel program against its whole-array reference, on the extended reals.

  Both programs compute, for 50000 nodes with 512 features and 400000 edges, `out = (h + Σ_edges h) · W2 + b2` with
  `h = max ((x + Σ_edges x) · W1 + b1, 0)`, where `Σ_edges v` adds to every node the rows of `v` at the sources of the
  edges that end in it.  The edge aggregation is the same host computation in both programs and is carried as an opaque
  function of its operand and of the edge list.  The kernel program computes each dense layer in a grid region, 1000
  rows per grid point, as a matrix product into a zero accumulator plus the bias row (plus the rectifier in the first
  layer); the reference computes it as one whole matrix product plus the broadcast bias.  On the extended reals both
  are, entry by entry, the same sum of products plus the bias: no law beyond that reading is needed, and in particular
  the finiteness of the inputs is not used.

  The claims: the three programs terminate without fault and leave their arguments unchanged (the kernel programs'
  frames are the generated ones, the reference's is its generated run); the idealized kernel program is the kernel
  program's own text read on the extended reals (no rewrite, nothing to preserve); and the two idealized programs end
  with equal results.
-/
import proofs.«147113_j12386685682456_1_alg».proof.Defs
import proofs.«147113_j12386685682456_1_alg».proof.Proof.Gen.Kernel
import proofs.«147113_j12386685682456_1_alg».proof.Proof.Gen.Kernel.Frame
import proofs.«147113_j12386685682456_1_alg».proof.Proof.Gen.KernelIdeal
import proofs.«147113_j12386685682456_1_alg».proof.Proof.Gen.KernelIdeal.Frame
import proofs.«147113_j12386685682456_1_alg».proof.Proof.Gen.ReferenceIdeal
import proofs.«147113_j12386685682456_1_alg».proof.Proof.Gen.ReferenceIdeal.Run
import proofs.«147113_j12386685682456_1_alg».proof.Proof.Gen.ReferenceIdeal.Read
import proofs.«147113_j12386685682456_1_alg».proof.Proof.Gen.Pre_finite_inputs
import proofs.«147113_j12386685682456_1_alg».proof.Proof.KernelValue
import Idealize.ShloMosaic.Adequacy
import Idealize.ShloMosaic.Init

noncomputable section

namespace Cert.Proof

open Idealize.ShloMosaic Idealize.ShloMosaic.TcCoe Idealize.SL.Sem

theorem frame_k : Cert.frame_Kernel := fun m ρ _ => Cert.Kernel.Gen.frame m ρ

theorem frame_ki : Cert.frame_KernelIdeal := fun m ρ _ => Cert.KernelIdeal.Gen.frame m ρ

/-- The reference's frame is its run with the result forgotten. -/
theorem frame_ri : Cert.frame_ReferenceIdeal := fun m ρ _ =>
  (θ_run Cert.ReferenceIdeal.defs _ _).mono (fun _ h c => (h c).2) (Cert.ReferenceIdeal.Value.run (F := Ideal) m ρ)

/-- The idealization rewrote nothing. -/
theorem preserves : Cert.preserves_Kernel_KernelIdeal := trivial

/-- Both runs end with the result at the reference's last stage of the (agreeing) argument arrays. -/
theorem algebraic : Cert.algebraic_KernelIdeal_ReferenceIdeal := by
  intro m ρ m' ρ' _ hagree
  refine ⟨_, Cert.KernelIdeal.Hand.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v34_eq, (hagree c).1, (hagree c).2.1, (hagree c).2.2.1, (hagree c).2.2.2.1,
    (hagree c).2.2.2.2.1, (hagree c).2.2.2.2.2]

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
